-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg4 : FVec F S16 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S16 .f32 := Host.absf main_arg4
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S4x2048x4096 .f32) (main_arg1 : FVec F S4096x4096 .f32) (main_arg2 : FVec F S16x4096 .f32) (main_arg3 : FVec F S4096x16 .f32) (main_arg4 : FVec F S16 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S16x4096 .f32 := Host.absf main_arg2
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg3
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg4 main_v13 main_v16
-- ==== Kernel.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S1x16 : Shape := ⟨2, ![1, 16]⟩
abbrev S8192x4096 : Shape := ⟨2, ![8192, 4096]⟩
abbrev S1024x1024 : Shape := ⟨2, ![1024, 1024]⟩
abbrev S1024x16 : Shape := ⟨2, ![1024, 16]⟩
abbrev S16x1024 : Shape := ⟨2, ![16, 1024]⟩

abbrev nBuf : Space → Nat
  | .hbm => 24
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .i1⟩
  | .hbm, ⟨9, _⟩ => ⟨S16, .f32⟩
  | .hbm, ⟨10, _⟩ => ⟨S16, .f32⟩
  | .hbm, ⟨11, _⟩ => ⟨S1x16, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096x16, .f32⟩
  | .hbm, ⟨16, _⟩ => ⟨S4096x16, .f32⟩
  | .hbm, ⟨17, _⟩ => ⟨S4096x16, .bf16⟩
  | .hbm, ⟨18, _⟩ => ⟨S16x4096, .bf16⟩
  | .hbm, ⟨19, _⟩ => ⟨S8192x4096, .f32⟩
  | .hbm, ⟨20, _⟩ => ⟨S8192x4096, .bf16⟩
  | .hbm, ⟨21, _⟩ => ⟨S4096x4096, .bf16⟩
  | .hbm, ⟨22, _⟩ => ⟨S8192x4096, .f32⟩
  | .hbm, ⟨23, _⟩ => ⟨S4x2048x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x16, .bf16⟩
  | .local _ .vmem, ⟨5, _⟩ => ⟨S1024x16, .bf16⟩
  | .local _ .vmem, ⟨6, _⟩ => ⟨S16x1024, .bf16⟩
  | .local _ .vmem, ⟨7, _⟩ => ⟨S16x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 4, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x16 : S_.BroadcastsInDim S4096x16 (![] : Fin 0 → Fin S4096x16.rank)
  bitsLt_bf16_f32 : FTy.bits .bf16 < FTy.bits .f32
  shapeCasts_S4x2048x4096_S8192x4096 : S4x2048x4096.ShapeCasts S8192x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  shapeCasts_S8192x4096_S4x2048x4096 : S8192x4096.ShapeCasts S4x2048x4096
  dot_S1024x16_S16x1024_S1024x1024_1_0_0_1_n_n_wf : DotDims.WF S1024x16 S16x1024 S1024x1024 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x4096.size a
  hwx0_0 : ∀ i : grid0.Coords, EltTy.bits .bf16 = 32 ∨ (Rect.block (s := S8192x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x16.size a ≤ S4096x16.size a
  hwx0_2 : ∀ i : grid0.Coords, EltTy.bits .bf16 = 32 ∨ (Rect.block (s := S4096x16) S1024x16.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1024.size a ≤ S16x4096.size a
  hwx0_3 : ∀ i : grid0.Coords, EltTy.bits .bf16 = 32 ∨ (Rect.block (s := S16x4096) S16x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x4096.size a
  hwx0_4 : ∀ i : grid0.Coords, EltTy.bits .f32 = 32 ∨ (Rect.block (s := S8192x4096) S1024x1024.size (cc0_transform_4 i) (hinb0_4 i)).WholeWords (EltTy.packing .f32)

variable [Facts₀]

def dot_S1024x16_S16x1024_S1024x1024_1_0_0_1_n_n : DotDims S1024x16 S16x1024 S1024x1024 where
  lhsContracting := [1]
  rhsContracting := [0]
  lhsNonContracting := [0]
  rhsNonContracting := [1]
  lhsBatch := []
  rhsBatch := []
  wf := dot_S1024x16_S16x1024_S1024x1024_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v13) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S16x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S4096x4096 : Shape := ⟨2, ![4096, 4096]⟩
abbrev S16x4096 : Shape := ⟨2, ![16, 4096]⟩
abbrev S4096x16 : Shape := ⟨2, ![4096, 16]⟩
abbrev S16 : Shape := ⟨1, ![16]⟩
abbrev S_ : Shape := ⟨0, ![]⟩
abbrev S1x16 : Shape := ⟨2, ![1, 16]⟩

abbrev nBuf : Space → Nat
  | .hbm => 21
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096x4096, .f32⟩
  | .hbm, ⟨2, _⟩ => ⟨S16x4096, .f32⟩
  | .hbm, ⟨3, _⟩ => ⟨S4096x16, .f32⟩
  | .hbm, ⟨4, _⟩ => ⟨S16, .f32⟩
  | .hbm, ⟨5, _⟩ => ⟨S16, .f32⟩
  | .hbm, ⟨6, _⟩ => ⟨S_, .f32⟩
  | .hbm, ⟨7, _⟩ => ⟨S16, .f32⟩
  | .hbm, ⟨8, _⟩ => ⟨S16, .i1⟩
  | .hbm, ⟨9, _⟩ => ⟨S16, .f32⟩
  | .hbm, ⟨10, _⟩ => ⟨S16, .f32⟩
  | .hbm, ⟨11, _⟩ => ⟨S1x16, .f32⟩
  | .hbm, ⟨12, _⟩ => ⟨S4096x16, .f32⟩
  | .hbm, ⟨13, _⟩ => ⟨S4096x16, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4x2048x4096, .f32⟩
  | .hbm, ⟨19, _⟩ => ⟨S4x2048x4096, .f32⟩
  | .hbm, ⟨20, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  bcast_S_S4096x4096 : S_.BroadcastsInDim S4096x4096 (![] : Fin 0 → Fin S4096x4096.rank)
  dot_S4096x16_S16x4096_S4096x4096_1_0_0_1_n_n_wf : DotDims.WF S4096x16 S16x4096 S4096x4096 [1] [0] [0] [1] [] []
  dot_S4x2048x4096_S4096x4096_S4x2048x4096_2_1_01_0_n_n_wf : DotDims.WF S4x2048x4096 S4096x4096 S4x2048x4096 [2] [1] [0, 1] [0] [] []

variable [Facts₀]

def dot_S4096x16_S16x4096_S4096x4096_1_0_0_1_n_n : DotDims S4096x16 S16x4096 S4096x4096 where
  lhsContracting := [1]
  rhsContracting := [0]
  lhsNonContracting := [0]
  rhsNonContracting := [1]
  lhsBatch := []
  rhsBatch := []
  wf := dot_S4096x16_S16x4096_S4096x4096_1_0_0_1_n_n_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf

class Facts : Prop extends Facts₀ where

variable [Facts]
-- ==== Proof.KernelPieces.lean ====
/-
  What one run of the kernel body leaves behind, case by case. At every grid point the body replaces the carried
  accumulator `acc` by `acc + x · (W + Bs · A)ᵀ` of the point's four input blocks (the payload of its one store into the
  accumulator): at the first step along the contraction axis it first stores the zero block and reads that back as
  `acc`; at the last step it also copies the new accumulator into the output block.
-/
import proofs.«130401_j40355512714080_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- The first step along the contraction axis: the accumulator is left at the payload of the four blocks over the
    zero block, which the body stored and read back. -/
theorem sout_A (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x16 .bf16) (h5 : a5.IsWhole)
    (a6 : Memref sig .tc .vmem S16x1024 .bf16) (h6 : a6.IsWhole) (a7 : Memref sig .tc .vmem S1024x1024 .f32) (h7 : a7.IsWhole)
    (a8 : Memref sig .tc .vmem S1024x1024 .f32) (h8 : a8.IsWhole) (hc0 : cond0_0 i) (hc1 : ¬cond0_1 i)
    (x0 : Vec F S1024x1024 .bf16) (x1 : Vec F S1024x1024 .bf16) (x2 : Vec F S1024x16 .bf16) (x3 : Vec F S16x1024 .bf16) :
    sout0_A_0 c i a3 h3 a4 h4 a5 h5 a6 h6 a7 h7 a8 h8 hc0 hc1 x0 x1 x2 x3 = k0_pay2 x2 x3 x1 (k0_pay1 (F := F)) x0 := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S1024x1024) hz, View.readCov_unit_zero (S := S1024x1024) _ hz]
  simp only [View.readAt_eq_ld, h3.read_unread, h4.read_unread, h5.read_unread, h6.read_unread, h8.read_unread,
    View.ld_unit_zero (S := S1024x1024) hz, View.ld_unit_zero (S := S1024x16) hz, View.ld_unit_zero (S := S16x1024) hz]

/-- A middle step: the accumulator `xs` becomes the payload of the four blocks over `xs`. -/
theorem sout_B (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x16 .bf16) (h5 : a5.IsWhole)
    (a6 : Memref sig .tc .vmem S16x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : ¬cond0_1 i)
    (x0 : Vec F S1024x1024 .bf16) (x1 : Vec F S1024x1024 .bf16) (x2 : Vec F S1024x16 .bf16) (x3 : Vec F S16x1024 .bf16) (xs : Vec F S1024x1024 .f32) :
    sout0_B_0 c i a3 h3 a4 h4 a5 h5 a6 h6 a7 h7 a8 h8 hc0 hc1 x0 x1 x2 x3 xs = k0_pay2 x2 x3 x1 xs x0 := by
  unfold sout0_B_0
  rw [View.read_writes_eq_canon _ _ _ (scover0_B_0 c i a3 h3 a4 h4 a5 h5 a6 h6 a7 h7 a8 h8 hc0 hc1 x0 x1 x2 x3 xs)]
  unfold kernelRun0_B
  dsimp only
  rw [View.canon_unit_zero hz]
  simp only [View.readAt_eq_ld, h3.read_unread, h4.read_unread, h5.read_unread, h6.read_unread, h8.read_unread,
    View.ld_unit_zero (S := S1024x1024) hz, View.ld_unit_zero (S := S1024x16) hz, View.ld_unit_zero (S := S16x1024) hz]

/-- The last step leaves the accumulator likewise, -/
theorem sout_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x16 .bf16) (h5 : a5.IsWhole)
    (a6 : Memref sig .tc .vmem S16x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 : Vec F S1024x1024 .bf16) (x1 : Vec F S1024x1024 .bf16) (x2 : Vec F S1024x16 .bf16) (x3 : Vec F S16x1024 .bf16) (xs : Vec F S1024x1024 .f32) :
    sout0_C_0 c i a3 h3 a4 h4 a5 h5 a6 h6 a7 h7 a8 h8 hc0 hc1 x0 x1 x2 x3 xs = k0_pay2 x2 x3 x1 xs x0 := by
  unfold sout0_C_0
  rw [View.read_writes_eq_canon _ _ _ (scover0_C_0 c i a3 h3 a4 h4 a5 h5 a6 h6 a7 h7 a8 h8 hc0 hc1 x0 x1 x2 x3 xs)]
  unfold kernelRun0_C
  dsimp only
  sl_unfold_words
  rw [View.canon_unit_zero (S := S1024x1024) hz]
  simp only [View.readAt_eq_ld, h3.read_unread, h4.read_unread, h5.read_unread, h6.read_unread, h8.read_unread,
    View.ld_unit_zero (S := S1024x1024) hz, View.ld_unit_zero (S := S1024x16) hz, View.ld_unit_zero (S := S16x1024) hz]

/-- and the output block at the accumulator it has just stored. -/
theorem out_C (c : Dev nD) (i : grid0.Coords) (a3 : Memref sig .tc .vmem S1024x1024 .bf16) (h3 : a3.IsWhole)
    (a4 : Memref sig .tc .vmem S1024x1024 .bf16) (h4 : a4.IsWhole) (a5 : Memref sig .tc .vmem S1024x16 .bf16) (h5 : a5.IsWhole)
    (a6 : Memref sig .tc .vmem S16x1024 .bf16) (h6 : a6.IsWhole) (a7 : Memref sig .tc .vmem S1024x1024 .f32) (h7 : a7.IsWhole)
    (a8 : Memref sig .tc .vmem S1024x1024 .f32) (h8 : a8.IsWhole) (hc0 : ¬cond0_0 i) (hc1 : cond0_1 i)
    (x0 : Vec F S1024x1024 .bf16) (x1 : Vec F S1024x1024 .bf16) (x2 : Vec F S1024x16 .bf16) (x3 : Vec F S16x1024 .bf16) (xs : Vec F S1024x1024 .f32) :
    out0_C_4 c i a3 h3 a4 h4 a5 h5 a6 h6 a7 h7 a8 h8 hc0 hc1 x0 x1 x2 x3 xs = k0_pay2 x2 x3 x1 xs x0 := by
  unfold out0_C_4
  rw [View.read_writes_eq_canon _ _ _ (cover0_C_4 c i a3 h3 a4 h4 a5 h5 a6 h6 a7 h7 a8 h8 hc0 hc1 x0 x1 x2 x3 xs)]
  unfold kernelRun0_C
  dsimp only
  sl_unfold_words
  rw [View.canon_unit_zero (S := S1024x1024) hz, View.readCov_unit_zero (S := S1024x1024) _ hz]
  simp only [View.readAt_eq_ld, h3.read_unread, h4.read_unread, h5.read_unread, h6.read_unread, h8.read_unread,
    View.ld_unit_zero (S := S1024x1024) hz, View.ld_unit_zero (S := S1024x16) hz, View.ld_unit_zero (S := S16x1024) hz]

end Cert.KernelIdeal.Pieces

end
-- ==== Proof.LibDot.lean ====
/-
  A rows-by-columns product read at an index.

  For dimension numbers that contract the left operand's second axis with the right operand's first (the plain
  `M × K` by `K × N` product), the sum over the contraction index that both the kernel's matrix unit and the
  host's `dot_general` denote on the extended reals is the familiar `Σ_k l (a, k) · r (k, b)`.
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : ℕ}

/-- The contraction sum of a plain product at output index `(a, b)` is the sum over `k : Fin K` of
    `l (a, k) · r (k, b)`. The dimension numbers are given by their six lists, as a printed record states them. -/
theorem sum_eq (D : DotDims ⟨2, ![M, K]⟩ ⟨2, ![K, N]⟩ ⟨2, ![M, N]⟩)
    (h1 : D.lhsContracting = [1]) (h2 : D.rhsContracting = [0]) (h3 : D.lhsNonContracting = [0])
    (h4 : D.rhsNonContracting = [1]) (h5 : D.lhsBatch = []) (h6 : D.rhsBatch = [])
    (l : (⟨2, ![M, K]⟩ : Shape).Idx → EReal) (r : (⟨2, ![K, N]⟩ : Shape).Idx → EReal) (a : Fin M) (b : Fin N) :
    ∑ k : D.contr.Idx, l (D.lhsIdx (ix2 a b) k) * r (D.rhsIdx (ix2 a b) k) = ∑ k : Fin K, l (ix2 a k) * r (ix2 k b) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![K, N]⟩) (so := ⟨2, ![M, N]⟩) [1] [0] [0] [1] [] [] wf).contr.rank = 1 := rfl
  have hs : (DotDims.mk (sl := ⟨2, ![M, K]⟩) (sr := ⟨2, ![K, N]⟩) (so := ⟨2, ![M, N]⟩) [1] [0] [0] [1] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![K, N]⟩) (so := ⟨2, ![M, N]⟩) [1] [0] [0] [1] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![K, N]⟩) (so := ⟨2, ![M, N]⟩) [1] [0] [0] [1] [] [] wf).rhsIdx (ix2 a b) ((contrEquiv1 _ K hr hs).symm k) = ix2 k b := by
    funext d
    match d with
    | ⟨0, _⟩ =>
      refine Fin.ext ?_
      exact (DotDims.rhsIdx_val_of_single _ (cr := 0) rfl (ix2 a b) _).trans (contrEquiv1_symm_val _ K hr hs k)
    | ⟨1, _⟩ => rfl
  rw [el, er]

end Idealize.ShloMosaic.PlainDot

end
-- ==== Proof.LibDotT.lean ====
/-
  A product of a rows-by-depth array with the TRANSPOSE of a columns-by-depth array, read at an index.

  For dimension numbers that contract the second axis of both operands (the `M × K` by `N × K` product `x · wᵀ`,
  what a linear layer with weights stored output-major computes), the sum over the contraction index that both the
  kernel's matrix unit and the host's `dot_general` denote on the extended reals is `Σ_k l (a, k) · r (b, k)`.
-/
import Idealize.ShloMosaic.PureOps.Ideal.Laws
import Idealize.ShloMosaic.Lib.ValueIdx

noncomputable section

open scoped BigOperators

namespace Cert.LibDotT

open Idealize.ShloMosaic Idealize.ShloMosaic.ValueIdx

variable {M K N : ℕ}

/-- The contraction sum of `x · wᵀ` at output index `(a, b)` is the sum over `k : Fin K` of `l (a, k) · r (b, k)`.
    The dimension numbers are given by their six lists, as a printed record states them. -/
theorem sum_eq (D : DotDims ⟨2, ![M, K]⟩ ⟨2, ![N, K]⟩ ⟨2, ![M, N]⟩)
    (h1 : D.lhsContracting = [1]) (h2 : D.rhsContracting = [1]) (h3 : D.lhsNonContracting = [0])
    (h4 : D.rhsNonContracting = [0]) (h5 : D.lhsBatch = []) (h6 : D.rhsBatch = [])
    (l : (⟨2, ![M, K]⟩ : Shape).Idx → EReal) (r : (⟨2, ![N, K]⟩ : Shape).Idx → EReal) (a : Fin M) (b : Fin N) :
    ∑ k : D.contr.Idx, l (D.lhsIdx (ix2 a b) k) * r (D.rhsIdx (ix2 a b) k) = ∑ k : Fin K, l (ix2 a k) * r (ix2 b k) := by
  obtain ⟨lc, rc, ln, rn, lb, rb, wf⟩ := D
  dsimp only at h1 h2 h3 h4 h5 h6
  subst h1 h2 h3 h4 h5 h6
  have hr : (DotDims.mk (sl := ⟨2, ![M, K]⟩) (sr := ⟨2, ![N, K]⟩) (so := ⟨2, ![M, N]⟩) [1] [1] [0] [0] [] [] wf).contr.rank = 1 := rfl
  have hs : (DotDims.mk (sl := ⟨2, ![M, K]⟩) (sr := ⟨2, ![N, K]⟩) (so := ⟨2, ![M, N]⟩) [1] [1] [0] [0] [] [] wf).contr.size ⟨0, by omega⟩ = K := rfl
  rw [← Equiv.sum_comp (contrEquiv1 _ K hr hs).symm]
  refine Finset.sum_congr rfl fun k _ => ?_
  have el : (DotDims.mk (sl := ⟨2, ![M, K]⟩) (sr := ⟨2, ![N, K]⟩) (so := ⟨2, ![M, N]⟩) [1] [1] [0] [0] [] [] wf).lhsIdx (ix2 a b) ((contrEquiv1 _ K hr hs).symm k) = ix2 a k := by
    funext d
    match d with
    | ⟨0, _⟩ => rfl
    | ⟨1, _⟩ =>
      refine Fin.ext ?_
      exact (DotDims.lhsIdx_val_of_single _ (cl := 1) rfl (ix2 a b) _).trans (contrEquiv1_symm_val _ K hr hs k)
  have er : (DotDims.mk (sl := ⟨2, ![M, K]⟩) (sr := ⟨2, ![N, K]⟩) (so := ⟨2, ![M, N]⟩) [1] [1] [0] [0] [] [] wf).rhsIdx (ix2 a b) ((contrEquiv1 _ K hr hs).symm k) = ix2 b k := by
    funext d
    match d with
    | ⟨0, _⟩ => rfl
    | ⟨1, _⟩ =>
      refine Fin.ext ?_
      exact (DotDims.rhsIdx_val_of_single _ (cr := 1) rfl (ix2 a b) _).trans (contrEquiv1_symm_val _ K hr hs k)
  rw [el, er]

end Cert.LibDotT

end
-- ==== Proof.KernelPayload.lean ====
/-
  The body's arithmetic read at one entry, on the extended reals. With `x` the block of activations, `W` the block of
  weights, `Bs` the block of scaled left factors and `A` the block of right factors, entry `(p, q)` of the new accumulator
  is the old entry plus `Σ_k x (p, k) · (W (q, k) + Σ_r Bs (q, r) · A (r, k))`: both matrix units start from the zero
  block, the first forms the rank-16 product, the second contracts the second axis of both its operands, and the changes
  of float format between them are the identity.
-/
import proofs.«130401_j40355512714080_2_alg».proof.Proof.Gen.KernelIdeal.Skeleton
import proofs.«130401_j40355512714080_2_alg».proof.Proof.LibDot
import proofs.«130401_j40355512714080_2_alg».proof.Proof.LibDotT
import Idealize.ShloMosaic.Lib.Pipeline.Value

noncomputable section

open scoped BigOperators

namespace Cert.KernelIdeal.Payload

open Idealize.ShloMosaic Idealize.ShloMosaic.ValueIdx Cert.KernelIdeal Cert.KernelIdeal.Gen

/-- The zero block at an entry. -/
theorem pay1_apply (p q : Fin 1024) : k0_pay1 (F := Ideal) (ix2 p q) = 0 := by
  unfold k0_pay1
  simp only [shapeCast_self]
  exact Ideal.ofBits_zero_f32

/-- The new accumulator at entry `(p, q)`. -/
theorem pay2_apply (bs : Vec Ideal S1024x16 .bf16) (a : Vec Ideal S16x1024 .bf16) (w : Vec Ideal S1024x1024 .bf16)
    (acc : Vec Ideal S1024x1024 .f32) (x : Vec Ideal S1024x1024 .bf16) (p q : Fin 1024) :
    k0_pay2 (F := Ideal) bs a w acc x (ix2 p q)
      = acc (ix2 p q) + ∑ k : Fin 1024, x (ix2 p k) * (w (ix2 q k) + ∑ r : Fin 16, bs (ix2 q r) * a (ix2 r k)) := by
  unfold k0_pay2
  simp only [shapeCast_self]
  show acc (ix2 p q) + _ = _
  refine congrArg (acc (ix2 p q) + ·) ?_
  refine (Ideal.matmul_constant_zero_apply dot_S1024x1024_S1024x1024_S1024x1024_1_1_0_0_n_n none _ _ (ix2 p q)).trans ?_
  refine (Cert.LibDotT.sum_eq dot_S1024x1024_S1024x1024_S1024x1024_1_1_0_0_n_n rfl rfl rfl rfl rfl rfl _ _ p q).trans ?_
  refine Finset.sum_congr rfl fun k _ => ?_
  refine congrArg (x (ix2 p k) * ·) ?_
  show w (ix2 q k) + _ = _
  refine congrArg (w (ix2 q k) + ·) ?_
  refine (Ideal.matmul_constant_zero_apply (φ₁ := .bf16) (φ₂ := .bf16) dot_S1024x16_S16x1024_S1024x1024_1_0_0_1_n_n none bs a (ix2 q k)).trans ?_
  exact Idealize.ShloMosaic.PlainDot.sum_eq dot_S1024x16_S16x1024_S1024x1024_1_0_0_1_n_n rfl rfl rfl rfl rfl rfl _ _ q k

end Cert.KernelIdeal.Payload

end
-- ==== Proof.LibReal.lean ====
/-
  Extended reals that are real numbers. On the extended reals the sum and the product are commutative and associative,
  but the product distributes over the sum only away from the infinities. The predicate `IsR a` says `a` is (the image of)
  a real number; it is closed under every operation met here — sums, finite sums, products, differences, the guarded and
  the plain division by a nonzero real, the logistic function and the hyperbolic tangent — and under it the distributive
  law holds.
-/
import Idealize.ShloMosaic.PureOps.Ideal

noncomputable section

namespace Cert.LibReal

open Idealize.ShloMosaic

/-- `a` is a real number. -/
def IsR (a : EReal) : Prop := ∃ r : ℝ, a = (r : EReal)

theorem IsR.coe (r : ℝ) : IsR (r : EReal) := ⟨r, rfl⟩
theorem IsR.zero : IsR 0 := ⟨0, rfl⟩
theorem IsR.one : IsR 1 := ⟨1, rfl⟩

theorem IsR.add {a b : EReal} (ha : IsR a) (hb : IsR b) : IsR (a + b) := by
  obtain ⟨r, rfl⟩ := ha; obtain ⟨s, rfl⟩ := hb; exact ⟨r + s, (EReal.coe_add r s).symm⟩

theorem IsR.mul {a b : EReal} (ha : IsR a) (hb : IsR b) : IsR (a * b) := by
  obtain ⟨r, rfl⟩ := ha; obtain ⟨s, rfl⟩ := hb; exact ⟨r * s, (EReal.coe_mul r s).symm⟩

theorem IsR.sub {a b : EReal} (ha : IsR a) (hb : IsR b) : IsR (a - b) := by
  obtain ⟨r, rfl⟩ := ha; obtain ⟨s, rfl⟩ := hb; exact ⟨r - s, (EReal.coe_sub r s).symm⟩

/-- A finite sum of real numbers is a real number. -/
theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

/-- The quotient of a real number by a nonzero real number. -/
theorem IsR.div {a b : EReal} (ha : IsR a) (hb : IsR b) (hb0 : b ≠ 0) : IsR (Ideal.div a b) := by
  obtain ⟨s, rfl⟩ := hb
  have hs : s ≠ 0 := fun e => hb0 (by rw [e]; rfl)
  rw [Ideal.div_coe hs]
  exact ha.mul (IsR.coe _)

theorem IsR.logistic {a : EReal} (ha : IsR a) : IsR (Ideal.logistic a) := by
  obtain ⟨r, rfl⟩ := ha; exact ⟨_, Ideal.logistic_coe r⟩

theorem IsR.tanh {a : EReal} (ha : IsR a) : IsR (Ideal.tanh a) := by
  obtain ⟨r, rfl⟩ := ha; exact ⟨_, Ideal.tanh_coe r⟩

/-- Among real numbers the product distributes over the sum. -/
theorem add_mul_of_isR {a b c : EReal} (ha : IsR a) (hb : IsR b) (hc : IsR c) : (a + b) * c = a * c + b * c := by
  obtain ⟨r, rfl⟩ := ha; obtain ⟨s, rfl⟩ := hb; obtain ⟨t, rfl⟩ := hc
  rw [← EReal.coe_add, ← EReal.coe_mul, ← EReal.coe_mul, ← EReal.coe_mul, ← EReal.coe_add, add_mul]

end Cert.LibReal

end
-- ==== Proof.Spec.lean ====
/-
  What both programs compute, as functions of the five argument arrays, and why the two agree.

  The layer is `x ↦ x · (W + Δ)ᵀ` with the low-rank correction `Δ = (B · diag(σ ⊙ mask)) · A`, where `mask r` is 1 when
  `|σ r|` is at least the threshold pattern and 0 otherwise. The reference forms `x · Wᵀ + x · Δᵀ` from two whole
  products; the kernel adds `Δ` to `W` first and accumulates the product over four consecutive quarters of the
  contraction axis. A sum over the contraction axis is the sum of its four quarters in any commutative monoid; moving
  `x` across `W + Δ` is the distributive law, which on the extended reals needs every factor to be a real number.
-/
import Idealize.ShloMosaic.PureOps.Ideal.Laws
import Idealize.ShloMosaic.Lib.ValueIdx
import proofs.«130401_j40355512714080_2_alg».proof.Proof.LibReal

noncomputable section

open scoped BigOperators

namespace Cert.Spec

open Idealize.ShloMosaic Idealize.ShloMosaic.ValueIdx Cert.LibReal

abbrev SX : Shape := ⟨3, ![4, 2048, 4096]⟩
abbrev SW : Shape := ⟨2, ![4096, 4096]⟩
abbrev SA : Shape := ⟨2, ![16, 4096]⟩
abbrev SB : Shape := ⟨2, ![4096, 16]⟩
abbrev SS : Shape := ⟨1, ![16]⟩

/-- The pattern of `1.0`, the scale both programs multiply the correction by. -/
def one : EReal := Ideal.ofBits .f32 0x3F800000#32

theorem one_eq : one = 1 := by
  unfold one
  simp [Ideal.ofBits, Ideal.ieee, -EReal.coe_mul]
  norm_num

/-- The threshold mask of one singular value: 1 when `|s|` is at least the pattern of `0.01`, else 0. -/
def mask (s : EReal) : EReal :=
  FloatOps.uitofp (F := Ideal) .f32
    (FloatOps.cmpf (F := Ideal) (φ := .f32) .oge (FloatOps.hostAbsf (F := Ideal) (φ := .f32) s)
      (FloatOps.ofBits (F := Ideal) .f32 0x3C23D70A#32))

theorem isR_mask (s : EReal) : IsR (mask s) := ⟨_, rfl⟩

/-- The masked singular value `σ r · mask (σ r)`. -/
def smv (σ : SS.Idx → EReal) (r : Fin 16) : EReal := σ (ix1 r) * mask (σ (ix1 r))

theorem isR_smv (σ : SS.Idx → EReal) (hσ : ∀ i, IsR (σ i)) (r : Fin 16) : IsR (smv σ r) :=
  (hσ _).mul (isR_mask _)

/-- The correction as the reference forms it: the rank-16 product, then the scale. -/
def deltaR (A : SA.Idx → EReal) (B : SB.Idx → EReal) (σ : SS.Idx → EReal) (o d : Fin 4096) : EReal :=
  (∑ r : Fin 16, (B (ix2 o r) * smv σ r) * A (ix2 r d)) * one

/-- The scaled left factor the kernel's wrapper forms: `B (o, r)` times the masked singular value, times the scale. -/
def bsv (B : SB.Idx → EReal) (σ : SS.Idx → EReal) (o : Fin 4096) (r : Fin 16) : EReal :=
  (B (ix2 o r) * smv σ r) * one

/-- The correction as the kernel forms it: the scale applied to the left factor first. -/
def deltaK (A : SA.Idx → EReal) (B : SB.Idx → EReal) (σ : SS.Idx → EReal) (o d : Fin 4096) : EReal :=
  ∑ r : Fin 16, bsv B σ o r * A (ix2 r d)

theorem deltaK_eq (A : SA.Idx → EReal) (B : SB.Idx → EReal) (σ : SS.Idx → EReal) (o d : Fin 4096) :
    deltaK A B σ o d = deltaR A B σ o d := by
  unfold deltaK deltaR bsv
  simp only [one_eq, mul_one]

theorem isR_deltaK (A : SA.Idx → EReal) (B : SB.Idx → EReal) (σ : SS.Idx → EReal)
    (hA : ∀ i, IsR (A i)) (hB : ∀ i, IsR (B i)) (hσ : ∀ i, IsR (σ i)) (o d : Fin 4096) : IsR (deltaK A B σ o d) :=
  IsR.sum _ _ fun r _ => (((hB _).mul (isR_smv σ hσ r)).mul (by rw [one_eq]; exact IsR.one)).mul (hA _)

/-- Position `k` of quarter `kb` of the contraction axis. -/
def dIdx (kb : ℕ) (k : Fin 1024) : Fin 4096 := ⟨(kb * 1024 + k.val) % 4096, Nat.mod_lt _ (by norm_num)⟩

/-- Row `p` of the `i`-th band of 1024 rows of the 8192 flattened rows. -/
def rIdx (i : ℕ) (p : Fin 1024) : Fin 8192 := ⟨(i * 1024 + p.val) % 8192, Nat.mod_lt _ (by norm_num)⟩

/-- A sum over the contraction axis is the sum of its four quarters, first to last. -/
theorem sum_quarters (g : Fin 4096 → EReal) :
    ∑ d : Fin 4096, g d
      = (((∑ k : Fin 1024, g (dIdx 0 k)) + ∑ k : Fin 1024, g (dIdx 1 k)) + ∑ k : Fin 1024, g (dIdx 2 k))
          + ∑ k : Fin 1024, g (dIdx 3 k) := by
  have h : ∀ (i : Fin 4) (k : Fin 1024), (finProdFinEquiv (i, k) : Fin 4096) = dIdx i.val k := by
    intro i k
    apply Fin.ext
    have h1 := i.isLt
    have h2 := k.isLt
    simp only [finProdFinEquiv_apply_val, dIdx]
    omega
  rw [← Equiv.sum_comp (finProdFinEquiv : Fin 4 × Fin 1024 ≃ Fin 4096) g, Fintype.sum_prod_type, Fin.sum_univ_four]
  simp only [h]
  rfl

/-- The product over one quarter of the contraction axis. -/
def part (f g : Fin 4096 → EReal) (kb : ℕ) : EReal := ∑ k : Fin 1024, f (dIdx kb k) * g (dIdx kb k)

/-- The running sum of the quarters' products: the first quarter, then one more quarter at a time. -/
def acc (f g : Fin 4096 → EReal) : ℕ → EReal
  | 0 => part f g 0
  | n + 1 => acc f g n + part f g (n + 1)

theorem acc_three (f g : Fin 4096 → EReal) : acc f g 3 = ∑ d : Fin 4096, f d * g d := by
  rw [sum_quarters fun d => f d * g d]
  rfl

/-- One output entry: accumulating `f · (w + δ)` over the quarters is `f · w + f · δ` summed whole, among real numbers. -/
theorem acc_add (f w δ : Fin 4096 → EReal) (hf : ∀ d, IsR (f d)) (hw : ∀ d, IsR (w d)) (hδ : ∀ d, IsR (δ d)) :
    acc f (fun d => w d + δ d) 3 = (∑ d : Fin 4096, f d * w d) + ∑ d : Fin 4096, f d * δ d := by
  rw [acc_three, ← Finset.sum_add_distrib]
  refine Finset.sum_congr rfl fun d _ => ?_
  rw [mul_comm, add_mul_of_isR (hw d) (hδ d) (hf d), mul_comm (w d), mul_comm (δ d)]

/-- The reference's entry `(b, s, o)`. -/
def refVal (x : SX.Idx → EReal) (w : SW.Idx → EReal) (A : SA.Idx → EReal) (B : SB.Idx → EReal) (σ : SS.Idx → EReal)
    (b : Fin 4) (s : Fin 2048) (o : Fin 4096) : EReal :=
  (∑ d : Fin 4096, x (ix3 b s d) * w (ix2 o d)) + ∑ d : Fin 4096, x (ix3 b s d) * deltaR A B σ o d

/-- The kernel's entry `(b, s, o)`. -/
def kerVal (x : SX.Idx → EReal) (w : SW.Idx → EReal) (A : SA.Idx → EReal) (B : SB.Idx → EReal) (σ : SS.Idx → EReal)
    (b : Fin 4) (s : Fin 2048) (o : Fin 4096) : EReal :=
  acc (fun d => x (ix3 b s d)) (fun d => w (ix2 o d) + deltaK A B σ o d) 3

theorem kerVal_eq_refVal (x : SX.Idx → EReal) (w : SW.Idx → EReal) (A : SA.Idx → EReal) (B : SB.Idx → EReal)
    (σ : SS.Idx → EReal) (hx : ∀ i, IsR (x i)) (hw : ∀ i, IsR (w i)) (hA : ∀ i, IsR (A i)) (hB : ∀ i, IsR (B i))
    (hσ : ∀ i, IsR (σ i)) (b : Fin 4) (s : Fin 2048) (o : Fin 4096) :
    kerVal x w A B σ b s o = refVal x w A B σ b s o := by
  unfold kerVal refVal
  rw [acc_add _ _ _ (fun d => hx _) (fun d => hw _) (fun d => isR_deltaK A B σ hA hB hσ o d)]
  simp only [deltaK_eq]

end Cert.Spec

end
-- ==== Proof.KernelBlocks.lean ====
/-
  The four input blocks of a grid point, read entry by entry off the arrays the region finds. Point `t` of the
  8 × 4 × 4 grid, the last axis running fastest, is output tile `(t / 16, (t / 4) % 4)` at contraction quarter `t % 4`:
  its block of activations is rows `t / 16` by quarter `t % 4`, its block of weights rows `(t / 4) % 4` by quarter
  `t % 4`, its block of left factors rows `(t / 4) % 4`, its block of right factors quarter `t % 4`.
-/
import proofs.«130401_j40355512714080_2_alg».proof.Proof.Gen.KernelIdeal.Frame
import proofs.«130401_j40355512714080_2_alg».proof.Proof.Spec
import Idealize.ShloMosaic.Lib.Pipeline.Value

noncomputable section

namespace Cert.KernelIdeal.Blocks

open Idealize.ShloMosaic Idealize.ShloMosaic.TcCoe Idealize.SL.Sem Idealize.ShloMosaic.ValueIdx
open Cert.KernelIdeal Cert.KernelIdeal.Gen

variable {F : FTy → Type} [FloatOps F]
variable (m : (ℓ : Loc nD τ sig) → Buf (Elt F) ℓ)

/-- The printed index maps, decided over the grid. -/
theorem idx_facts : ∀ t : Fin cfg0.N,
    win0_0.index t (0 : Fin 2) = t.val / 16 ∧ win0_0.index t (1 : Fin 2) = t.val % 4
    ∧ win0_1.index t (0 : Fin 2) = (t.val / 4) % 4 ∧ win0_1.index t (1 : Fin 2) = t.val % 4
    ∧ win0_2.index t (0 : Fin 2) = (t.val / 4) % 4 ∧ win0_2.index t (1 : Fin 2) = 0
    ∧ win0_3.index t (0 : Fin 2) = 0 ∧ win0_3.index t (1 : Fin 2) = t.val % 4
    ∧ win0_4.index t (0 : Fin 2) = t.val / 16 ∧ win0_4.index t (1 : Fin 2) = (t.val / 4) % 4 :=
  (by decide +kernel : ∀ t : Fin grid0.N, _)

theorem lt_N (t : Fin cfg0.N) : t.val < 128 := lt_of_lt_of_eq t.isLt (show cfg0.N = 128 from N_0)

/-- The block of activations. -/
theorem blk0 (c : Dev nD) (t : Fin cfg0.N) (p k : Fin 1024) :
    (iblk m c 0 t : Vec F S1024x1024 .bf16) (ix2 p k)
      = V m c main_v13 (ix2 (Spec.rIdx (t.val / 16) p) (Spec.dIdx (t.val % 4) k)) := by
  obtain ⟨e0, e1, -⟩ := idx_facts t
  have hN := lt_N t
  unfold iblk
  rw [View.read_apply]
  show V m c main_v13 (((cfg0.win 0).blk t).view.emb (ix2 p k)) = V m c main_v13 _
  have h : ((cfg0.win 0).blk t).view.emb (ix2 p k) = ix2 (Spec.rIdx (t.val / 16) p) (Spec.dIdx (t.val % 4) k) := by
    funext a; apply Fin.ext
    match a with
    | ⟨0, _⟩ => show win0_0.index t (0 : Fin 2) * 1024 + 1 * p.val = (t.val / 16 * 1024 + p.val) % 8192; have := p.isLt; omega
    | ⟨1, _⟩ => show win0_0.index t (1 : Fin 2) * 1024 + 1 * k.val = (t.val % 4 * 1024 + k.val) % 4096; have := k.isLt; omega
  rw [h]

/-- The block of weights. -/
theorem blk1 (c : Dev nD) (t : Fin cfg0.N) (q k : Fin 1024) :
    (iblk m c 1 t : Vec F S1024x1024 .bf16) (ix2 q k)
      = V m c main_v14 (ix2 (Spec.dIdx (t.val / 4 % 4) q) (Spec.dIdx (t.val % 4) k)) := by
  obtain ⟨-, -, e0, e1, -⟩ := idx_facts t
  have hN := lt_N t
  unfold iblk
  rw [View.read_apply]
  show V m c main_v14 (((cfg0.win 1).blk t).view.emb (ix2 q k)) = V m c main_v14 _
  have h : ((cfg0.win 1).blk t).view.emb (ix2 q k) = ix2 (Spec.dIdx (t.val / 4 % 4) q) (Spec.dIdx (t.val % 4) k) := by
    funext a; apply Fin.ext
    match a with
    | ⟨0, _⟩ => show win0_1.index t (0 : Fin 2) * 1024 + 1 * q.val = (t.val / 4 % 4 * 1024 + q.val) % 4096; have := q.isLt; omega
    | ⟨1, _⟩ => show win0_1.index t (1 : Fin 2) * 1024 + 1 * k.val = (t.val % 4 * 1024 + k.val) % 4096; have := k.isLt; omega
  rw [h]

/-- The block of scaled left factors. -/
theorem blk2 (c : Dev nD) (t : Fin cfg0.N) (q : Fin 1024) (r : Fin 16) :
    (iblk m c 2 t : Vec F S1024x16 .bf16) (ix2 q r) = V m c main_v10 (ix2 (Spec.dIdx (t.val / 4 % 4) q) r) := by
  obtain ⟨-, -, -, -, e0, e1, -⟩ := idx_facts t
  have hN := lt_N t
  unfold iblk
  rw [View.read_apply]
  show V m c main_v10 (((cfg0.win 2).blk t).view.emb (ix2 q r)) = V m c main_v10 _
  have h : ((cfg0.win 2).blk t).view.emb (ix2 q r) = ix2 (Spec.dIdx (t.val / 4 % 4) q) r := by
    funext a; apply Fin.ext
    match a with
    | ⟨0, _⟩ => show win0_2.index t (0 : Fin 2) * 1024 + 1 * q.val = (t.val / 4 % 4 * 1024 + q.val) % 4096; have := q.isLt; omega
    | ⟨1, _⟩ => show win0_2.index t (1 : Fin 2) * 16 + 1 * r.val = r.val; omega
  rw [h]

/-- The block of right factors. -/
theorem blk3 (c : Dev nD) (t : Fin cfg0.N) (r : Fin 16) (k : Fin 1024) :
    (iblk m c 3 t : Vec F S16x1024 .bf16) (ix2 r k) = V m c main_v11 (ix2 r (Spec.dIdx (t.val % 4) k)) := by
  obtain ⟨-, -, -, -, -, -, e0, e1, -⟩ := idx_facts t
  have hN := lt_N t
  unfold iblk
  rw [View.read_apply]
  show V m c main_v11 (((cfg0.win 3).blk t).view.emb (ix2 r k)) = V m c main_v11 _
  have h : ((cfg0.win 3).blk t).view.emb (ix2 r k) = ix2 r (Spec.dIdx (t.val % 4) k) := by
    funext a; apply Fin.ext
    match a with
    | ⟨0, _⟩ => show win0_3.index t (0 : Fin 2) * 16 + 1 * r.val = r.val; omega
    | ⟨1, _⟩ => show win0_3.index t (1 : Fin 2) * 1024 + 1 * k.val = (t.val % 4 * 1024 + k.val) % 4096; have := k.isLt; omega
  rw [h]

end Cert.KernelIdeal.Blocks

end
-- ==== Proof.KernelAcc.lean ====
/-
  The accumulation across the contraction axis. After grid point `t` the carried accumulator holds, at entry `(p, q)`,
  the running sum `Spec.acc` of the products of row `p` of the point's band of activations with row `q` of the point's
  band of corrected weights `W + Bs · A`, over the quarters `0 … t % 4` of the contraction axis — by induction on the
  point: a point at quarter 0 starts from the zero block, any other point adds its quarter to what the point before
  left, and the point before belongs to the same output tile. At quarter 3 the output block is a copy of it.
-/
import proofs.«130401_j40355512714080_2_alg».proof.Proof.KernelPieces
import proofs.«130401_j40355512714080_2_alg».proof.Proof.KernelPayload
import proofs.«130401_j40355512714080_2_alg».proof.Proof.KernelBlocks

noncomputable section

open scoped BigOperators

namespace Cert.KernelIdeal.Acc

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The four arrays the region finds, as functions of an index into the extended reals: the flattened activations, the
    weights, the scaled left factors and the right factors. -/
abbrev arrX (c : Dev nD) : S8192x4096.Idx → EReal := V m c main_v13
abbrev arrW (c : Dev nD) : S4096x4096.Idx → EReal := V m c main_v14
abbrev arrBs (c : Dev nD) : S4096x16.Idx → EReal := V m c main_v10
abbrev arrA (c : Dev nD) : S16x4096.Idx → EReal := V m c main_v11

/-- Row `p` of band `i` of the activations. -/
def xrow (c : Dev nD) (i : ℕ) (p : Fin 1024) : Fin 4096 → EReal :=
  fun d => arrX m c (ix2 (Spec.rIdx i p) d)

/-- Row `q` of band `j` of the corrected weights `W + Bs · A`. -/
def wrow (c : Dev nD) (j : ℕ) (q : Fin 1024) : Fin 4096 → EReal :=
  fun d => arrW m c (ix2 (Spec.dIdx j q) d)
    + ∑ r : Fin 16, arrBs m c (ix2 (Spec.dIdx j q) r) * arrA m c (ix2 r d)

/-- The running sum at point `n`: tile `(n / 16, (n / 4) % 4)`, quarters `0 … n % 4`. -/
def tileAcc (c : Dev nD) (n : ℕ) (p q : Fin 1024) : EReal :=
  Spec.acc (xrow m c (n / 16) p) (wrow m c (n / 4 % 4) q) (n % 4)

/-- One point's contribution, for blocks given by what their entries are in the arrays: the body's payload adds the
    quarter's product of the row of activations with the row of corrected weights. -/
theorem step_of (bs : Vec Ideal S1024x16 .bf16) (a : Vec Ideal S16x1024 .bf16) (w : Vec Ideal S1024x1024 .bf16)
    (accv : Vec Ideal S1024x1024 .f32) (x : Vec Ideal S1024x1024 .bf16)
    (X : S8192x4096.Idx → EReal) (W : S4096x4096.Idx → EReal) (Bs : S4096x16.Idx → EReal) (A : S16x4096.Idx → EReal)
    (i j kb : ℕ) (p q : Fin 1024)
    (hx : ∀ k : Fin 1024, x (ix2 p k) = X (ix2 (Spec.rIdx i p) (Spec.dIdx kb k)))
    (hw : ∀ k : Fin 1024, w (ix2 q k) = W (ix2 (Spec.dIdx j q) (Spec.dIdx kb k)))
    (hbs : ∀ r : Fin 16, bs (ix2 q r) = Bs (ix2 (Spec.dIdx j q) r))
    (ha : ∀ (r : Fin 16) (k : Fin 1024), a (ix2 r k) = A (ix2 r (Spec.dIdx kb k))) :
    k0_pay2 (F := Ideal) bs a w accv x (ix2 p q)
      = accv (ix2 p q) + Spec.part (fun d => X (ix2 (Spec.rIdx i p) d))
          (fun d => W (ix2 (Spec.dIdx j q) d) + ∑ r : Fin 16, Bs (ix2 (Spec.dIdx j q) r) * A (ix2 r d)) kb := by
  refine (Payload.pay2_apply bs a w accv x p q).trans ?_
  refine congrArg (accv (ix2 p q) + ·) ?_
  unfold Spec.part
  refine Finset.sum_congr rfl fun k _ => ?_
  simp only [hx, hw, hbs, ha]

/-- The same at a grid point's own blocks. -/
theorem step (c : Dev nD) (t : Fin cfg0.N) (accv : Vec Ideal S1024x1024 .f32) (p q : Fin 1024) :
    k0_pay2 (F := Ideal) (iblk m c 2 t) (iblk m c 3 t) (iblk m c 1 t) accv (iblk m c 0 t) (ix2 p q)
      = accv (ix2 p q) + Spec.part (xrow m c (t.val / 16) p) (wrow m c (t.val / 4 % 4) q) (t.val % 4) :=
  step_of (iblk m c 2 t) (iblk m c 3 t) (iblk m c 1 t) accv (iblk m c 0 t) (arrX m c) (arrW m c) (arrBs m c) (arrA m c)
    (t.val / 16) (t.val / 4 % 4) (t.val % 4) p q (fun k => Blocks.blk0 m c t p k) (fun k => Blocks.blk1 m c t q k)
    (fun r => Blocks.blk2 m c t q r) (fun r k => Blocks.blk3 m c t r k)

/-- A point at quarter 0, over the zero block. -/
theorem step_first (c : Dev nD) (n : ℕ) (h : n < cfg0.N) (h0 : n % 4 = 0) (p q : Fin 1024) :
    k0_pay2 (F := Ideal) (iblk m c 2 ⟨n, h⟩) (iblk m c 3 ⟨n, h⟩) (iblk m c 1 ⟨n, h⟩) (k0_pay1 (F := Ideal)) (iblk m c 0 ⟨n, h⟩) (ix2 p q)
      = tileAcc m c n p q := by
  refine (step m c ⟨n, h⟩ (k0_pay1 (F := Ideal)) p q).trans ?_
  rw [Payload.pay1_apply, zero_add]
  unfold tileAcc
  show Spec.part _ _ (n % 4) = Spec.acc _ _ (n % 4)
  rw [h0]
  rfl

/-- A later point, over what the point before left. -/
theorem step_next (c : Dev nD) (n : ℕ) (h : n < cfg0.N) (h0 : ¬n % 4 = 0) (accv : Vec Ideal S1024x1024 .f32)
    (hacc : ∀ p q : Fin 1024, accv (ix2 p q) = tileAcc m c (n - 1) p q) (p q : Fin 1024) :
    k0_pay2 (F := Ideal) (iblk m c 2 ⟨n, h⟩) (iblk m c 3 ⟨n, h⟩) (iblk m c 1 ⟨n, h⟩) accv (iblk m c 0 ⟨n, h⟩) (ix2 p q)
      = tileAcc m c n p q := by
  refine (step m c ⟨n, h⟩ accv p q).trans ?_
  rw [hacc p q]
  unfold tileAcc
  show Spec.acc _ _ ((n - 1) % 4) + Spec.part _ _ (n % 4) = Spec.acc _ _ (n % 4)
  have e1 : (n - 1) / 16 = n / 16 := by omega
  have e2 : (n - 1) / 4 % 4 = n / 4 % 4 := by omega
  obtain ⟨k, hk1, hk2⟩ : ∃ k, n % 4 = k + 1 ∧ (n - 1) % 4 = k := ⟨n % 4 - 1, by omega, by omega⟩
  rw [e1, e2, hk1, hk2]
  rfl

/-- The carried accumulator after every point. -/
theorem scratch_eq (c : Dev nD) : ∀ (n : ℕ) (h : n < cfg0.N) (p q : Fin 1024),
    (outsAt0 m c n h).2 (ix2 p q) = tileAcc m c n p q := by
  intro n
  induction n using Nat.strong_induction_on with
  | _ n ih =>
    intro h p q
    have hN : n < 128 := lt_of_lt_of_eq h (show cfg0.N = 128 from N_0)
    by_cases h0 : n % 4 = 0
    · have h1 : ¬n % 4 = 3 := by omega
      rw [outsAt0_A m c ⟨n, h⟩ h0 h1]
      dsimp only
      refine (congrFun (Pieces.sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩)) (ix2 p q)).trans ?_
      exact step_first m c n h h0 p q
    · by_cases h1 : n % 4 = 3
      · rw [outsAt0_C m c ⟨n, h⟩ h0 h1]
        dsimp only
        refine (congrFun (Pieces.sout_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2) (ix2 p q)).trans ?_
        exact step_next m c n h h0 _ (ih (n - 1) (by omega) _) p q
      · rw [outsAt0_B m c ⟨n, h⟩ h0 h1]
        dsimp only
        refine (congrFun (Pieces.sout_B (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2) (ix2 p q)).trans ?_
        exact step_next m c n h h0 _ (ih (n - 1) (by omega) _) p q

/-- The output block after a point at quarter 3: the finished tile. -/
theorem out_eq (c : Dev nD) (n : ℕ) (h : n < cfg0.N) (h1 : n % 4 = 3) (p q : Fin 1024) :
    (outsAt0 m c n h).1 (ix2 p q) = tileAcc m c n p q := by
  have h0 : ¬n % 4 = 0 := by omega
  rw [outsAt0_C m c ⟨n, h⟩ h0 h1]
  dsimp only
  refine (congrFun (Pieces.out_C (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) _ _ (iblk m c 0 ⟨n, h⟩) (iblk m c 1 ⟨n, h⟩) (iblk m c 2 ⟨n, h⟩) (iblk m c 3 ⟨n, h⟩) (outsAt0 m c (n - 1) (Nat.lt_of_le_of_lt (Nat.sub_le _ _) h)).2) (ix2 p q)).trans ?_
  exact step_next m c n h h0 _ (scratch_eq m c (n - 1) _) p q

end Cert.KernelIdeal.Acc

end
-- ==== Proof.LibColumn.lean ====
/-
  Layout operations of "keepdims" row statistics, read at an index given by coordinates.

  A row statistic of an `[a, b]` array (a sum, a mean, a variance along the second axis) lives in an `[a]` array,
  is given a unit column axis, `[a, 1]`, and is spread back over the row, `[a, b]`; a per-feature parameter `[b]` is
  given a unit row axis `[1, b]` and spread over the rows. Each of these steps, in a kernel's vector spelling
  (`shapeCast`, `broadcastTo`) and in the host's (`broadcastInDim` with explicit axes), reads at `(p, c)` the
  operand at the evident coordinates. The lemmas are stated over indices built by `ix1` / `ix2` at every extent, so
  they apply to a printed operation by unification.
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[a] → [a, 1]` along axis 0 reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- The host's `[a, 1] → [a, b]` along axes (0, 1) reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- The host's `[b] → [1, b]` along axis 1 reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply ![1] h x (ix2 u c) (ix1 c) fun ax => ?_
  match ax with
  | ⟨0, _⟩ =>
    show c.val = if b = 1 then 0 else c.val
    split
    · have := c.isLt; omega
    · rfl

/-- The host's `[1, b] → [a, b]` along axes (0, 1) reads, at `(p, c)`, the one row at `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- The host's spread of a rank-0 value over any shape reads, everywhere, that value. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply ![] h x j ix0 fun ax => ax.elim0

end Cert.LibColumn
-- ==== Proof.KernelValue.lean ====
/-
  The kernel's result as one function of the argument arrays. The region's output array `[8192, 4096]` ends, at
  `(R, O)`, at the running sum over all four quarters of row `R` of the flattened activations against row `O` of the
  corrected weights: output tile `(R / 1024, O / 1024)` is written back once, after its last quarter, and the tiles
  cover the array. The program's result is that array cut back into `[4, 2048, 4096]`; the arrays the region finds are
  the arguments themselves (rounded to a narrower format, which is the identity here), the activations flattened and
  the left factors scaled by the masked singular values and the pattern of `1.0`.
-/
import proofs.«130401_j40355512714080_2_alg».proof.Proof.KernelAcc
import proofs.«130401_j40355512714080_2_alg».proof.Proof.LibColumn
import Idealize.ShloMosaic.Lib.StableHlo.Run

noncomputable section

open scoped BigOperators

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The arrays the region finds -/

/-- The five argument arrays at launch, as functions of an index into the extended reals. -/
abbrev a0 (c : Dev nD) : S4x2048x4096.Idx → EReal := m ((c : Thread nD τ).loc main_arg0)
abbrev a1 (c : Dev nD) : S4096x4096.Idx → EReal := m ((c : Thread nD τ).loc main_arg1)
abbrev a2 (c : Dev nD) : S16x4096.Idx → EReal := m ((c : Thread nD τ).loc main_arg2)
abbrev a3 (c : Dev nD) : S4096x16.Idx → EReal := m ((c : Thread nD τ).loc main_arg3)
abbrev a4 (c : Dev nD) : S16.Idx → EReal := m ((c : Thread nD τ).loc main_arg4)

/-- Flattened row `b · 2048 + s`. -/
def flat (b : Fin 4) (s : Fin 2048) : Fin 8192 := ⟨b.val * 2048 + s.val, by have := b.isLt; have := s.isLt; omega⟩

/-- The flattening `[4, 2048, 4096] → [8192, 4096]` read at `(b · 2048 + s, d)`. -/
theorem flatten_apply (x : FVec Ideal S4x2048x4096 .f32) (b : Fin 4) (s : Fin 2048) (d : Fin 4096) :
    (truncf (F := Ideal) .bf16 (shapeCast S8192x4096 x shapeCasts_S4x2048x4096_S8192x4096) bitsLt_bf16_f32 : S8192x4096.Idx → EReal)
      (ix2 (flat b s) d) = x (ix3 b s d) := by
  rw [truncf_apply]
  exact shapeCast_apply x _ _ _ (by
    rw [Shape.rowMajor_val_three, Shape.rowMajor_val_two]
    rfl)

theorem arrX_apply (c : Dev nD) (b : Fin 4) (s : Fin 2048) (d : Fin 4096) :
    Acc.arrX m c (ix2 (flat b s) d) = a0 m c (ix3 b s d) := by
  have e : Acc.arrX m c
      = truncf (F := Ideal) .bf16 (shapeCast S8192x4096 (m ((c : Thread nD τ).loc main_arg0)) shapeCasts_S4x2048x4096_S8192x4096) bitsLt_bf16_f32 := by
    show StableHlo.after hostOps0 (fun b => m (c, b)) (Proc.devRef .tc main_v13) = _
    after_results <;> rfl
  rw [e]
  exact flatten_apply _ b s d

theorem arrW_apply (c : Dev nD) (i : S4096x4096.Idx) : Acc.arrW m c i = a1 m c i := by
  have e : Acc.arrW m c = truncf (F := Ideal) .bf16 (m ((c : Thread nD τ).loc main_arg1)) bitsLt_bf16_f32 := by
    show StableHlo.after hostOps0 (fun b => m (c, b)) (Proc.devRef .tc main_v14) = _
    after_results <;> rfl
  rw [e]
  rfl

theorem arrA_apply (c : Dev nD) (i : S16x4096.Idx) : Acc.arrA m c i = a2 m c i := by
  have e : Acc.arrA m c = truncf (F := Ideal) .bf16 (m ((c : Thread nD τ).loc main_arg2)) bitsLt_bf16_f32 := by
    show StableHlo.after hostOps0 (fun b => m (c, b)) (Proc.devRef .tc main_v11) = _
    after_results <;> rfl
  rw [e]
  rfl

/-- The scaled left factors at `(o, r)`: `B (o, r)` times the masked singular value `r`, times the pattern of `1.0`. -/
theorem scaled_apply (B : FVec Ideal S4096x16 .f32) (σ : FVec Ideal S16 .f32) (o : Fin 4096) (r : Fin 16) :
    (truncf (F := Ideal) .bf16
      (mulf
        (mulf B
          (broadcastInDim S4096x16 ![0, 1] bcast_S1x16_S4096x16_0_1
            (broadcastInDim S1x16 ![1] bcast_S16_S1x16_1
              (mulf σ
                (uitofp .f32
                  (cmpf .oge (Host.absf σ)
                    (broadcastInDim S16 ![] bcast_S_S16 (constant (F := Ideal) S_ .f32 0x3C23D70A#32))))))))
        (broadcastInDim S4096x16 ![] bcast_S_S4096x16 (constant (F := Ideal) S_ .f32 0x3F800000#32)))
      bitsLt_bf16_f32 : S4096x16.Idx → EReal) (ix2 o r)
      = Spec.bsv B σ o r := by
  rw [truncf_apply, mulf_apply, mulf_apply, Cert.LibColumn.broadcastInDim_1b_ab_apply,
    Cert.LibColumn.broadcastInDim_b_1b_apply, Cert.LibColumn.broadcastInDim_scalar_apply]
  rfl

theorem arrBs_apply (c : Dev nD) (o : Fin 4096) (r : Fin 16) :
    Acc.arrBs m c (ix2 o r) = Spec.bsv (a3 m c) (a4 m c) o r := by
  have e : Acc.arrBs m c
      = truncf (F := Ideal) .bf16
        (mulf
          (mulf (m ((c : Thread nD τ).loc main_arg3))
            (broadcastInDim S4096x16 ![0, 1] bcast_S1x16_S4096x16_0_1
              (broadcastInDim S1x16 ![1] bcast_S16_S1x16_1
                (mulf (m ((c : Thread nD τ).loc main_arg4))
                  (uitofp .f32
                    (cmpf .oge (Host.absf (m ((c : Thread nD τ).loc main_arg4)))
                      (broadcastInDim S16 ![] bcast_S_S16 (constant (F := Ideal) S_ .f32 0x3C23D70A#32))))))))
          (broadcastInDim S4096x16 ![] bcast_S_S4096x16 (constant (F := Ideal) S_ .f32 0x3F800000#32)))
        bitsLt_bf16_f32 := by
    show StableHlo.after hostOps0 (fun b => m (c, b)) (Proc.devRef .tc main_v10) = _
    after_results <;> rfl
  rw [e]
  exact scaled_apply _ _ o r

/-! ## The region's output array -/

/-- What the region's output array ends holding. -/
def G (c : Dev nD) : S8192x4096.Idx → EReal := fun i =>
  Spec.acc (fun d => Acc.arrX m c (ix2 (⟨(i 0).val, (i 0).isLt⟩ : Fin 8192) d))
    (fun d => Acc.arrW m c (ix2 (⟨(i 1).val, (i 1).isLt⟩ : Fin 4096) d)
      + ∑ r : Fin 16, Acc.arrBs m c (ix2 (⟨(i 1).val, (i 1).isLt⟩ : Fin 4096) r) * Acc.arrA m c (ix2 r d)) 3

/-- A point that finishes a tile writes back that tile of `G`. -/
theorem flushed_eq (c : Dev nD) (t : Fin cfg0.N) (hf : (cfg0.win 4).flush t = true) :
    (dats m 0 c).flushed 4 t = ((cfg0.win 4).blk t).view.read (Elt Ideal) (G m c) := by
  have h3 : t.val % 4 = 3 := (flush0_4 t).mp hf
  have hN := Blocks.lt_N t
  obtain ⟨-, -, -, -, -, -, -, -, e0, e1⟩ := Blocks.idx_facts t
  show (cfg0.win 4).cut (grid0.coords t) ((dats m 0 c).after 4 t) = _
  rw [after0_4]
  funext y
  show (outsAt0 m c t.val t.isLt).1 y = G m c (((cfg0.win 4).blk t).view.emb y)
  obtain ⟨p, q, rfl⟩ : ∃ (p q : Fin 1024), y = ix2 p q := ⟨y 0, y 1, eq_ix2 y⟩
  rw [Acc.out_eq m c t.val t.isLt h3 p q]
  have he : ((cfg0.win 4).blk t).view.emb (ix2 p q) = ix2 (Spec.rIdx (t.val / 16) p) (Spec.dIdx (t.val / 4 % 4) q) := by
    funext a; apply Fin.ext
    match a with
    | ⟨0, _⟩ => show win0_4.index t (0 : Fin 2) * 1024 + 1 * p.val = (t.val / 16 * 1024 + p.val) % 8192; have := p.isLt; omega
    | ⟨1, _⟩ => show win0_4.index t (1 : Fin 2) * 1024 + 1 * q.val = (t.val / 4 % 4 * 1024 + q.val) % 4096; have := q.isLt; omega
  rw [he]
  unfold Acc.tileAcc
  rw [h3]
  rfl

/-- An index of the output array is in point `t`'s tile iff each coordinate is in the tile's range. -/
theorem mem_blk (t : Fin cfg0.N) (i : S8192x4096.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v15).slice (win0_4.rect t)).set ↔ _
  rw [View.set_slice_whole, Rect.mem_set_unit]
  exact Iff.rfl

/-- Every index is in the tile of the point that finishes it. -/
theorem cover (i : S8192x4096.Idx) :
    ∃ t : Fin cfg0.N, (cfg0.win 4).flush t = true ∧ i ∈ ((cfg0.win 4).blk t).view.set := by
  have h0 : (i 0).val < 8192 := (i 0).isLt
  have h1 : (i 1).val < 4096 := (i 1).isLt
  have hN : cfg0.N = 128 := N_0
  have hlt : (i 0).val / 1024 * 16 + (i 1).val / 1024 * 4 + 3 < cfg0.N := by rw [hN]; omega
  obtain ⟨t, ht⟩ : ∃ t : Fin cfg0.N, t.val = (i 0).val / 1024 * 16 + (i 1).val / 1024 * 4 + 3 := ⟨⟨_, hlt⟩, rfl⟩
  refine ⟨t, (flush0_4 t).mpr (by omega), ?_⟩
  rw [mem_blk]
  obtain ⟨-, -, -, -, -, -, -, -, e0, e1⟩ := Blocks.idx_facts t
  intro a
  match a with
  | ⟨0, _⟩ =>
    show win0_4.index t (0 : Fin 2) * 1024 ≤ (i 0).val ∧ (i 0).val < win0_4.index t (0 : Fin 2) * 1024 + 1024
    omega
  | ⟨1, _⟩ =>
    show win0_4.index t (1 : Fin 2) * 1024 ≤ (i 1).val ∧ (i 1).val < win0_4.index t (1 : Fin 2) * 1024 + 1024
    omega

/-- The region's output array after the run. -/
theorem final (c : Dev nD) : (dats m 0 c).arrAt 4 cfg0.N = G m c :=
  (dats m 0 c).arrAt_eq_of_cover 4 (G m c) (flushed_eq m c) cover

/-! ## The program's result -/

/-- The program's result buffer: the region's output array cut back into `[4, 2048, 4096]`. -/
theorem tail_eq (c : Dev nD) :
    Pipeline.afterTail₀ cfgs (dats m) 0 (V0 m) [hostOps1] c main_v16
      = shapeCast S4x2048x4096 (G m c) shapeCasts_S8192x4096_S4x2048x4096 := by
  unfold Pipeline.afterTail₀
  show StableHlo.after hostOps1 _ (Proc.devRef .tc main_v16) = _
  after_results
  have hw : Pipeline.withArrays (cfgs 0).spec c (V0 m c) (fun w => (dats m 0 c).arrAt w (cfgs 0).N) (Proc.devRef .tc main_v15)
      = G m c := (Pipeline.withArrays_arr spec0 launch0.win.arr_inj c _ _ 4).trans (final m c)
  rw [hw]
  rfl

/-- The program's result as a function of the argument arrays. -/
def result (c : Dev nD) : S4x2048x4096.Idx → EReal := fun i =>
  Spec.kerVal (a0 m c) (a1 m c) (a2 m c) (a3 m c) (a4 m c)
    (⟨(i 0).val, (i 0).isLt⟩ : Fin 4) (⟨(i 1).val, (i 1).isLt⟩ : Fin 2048) (⟨(i 2).val, (i 2).isLt⟩ : Fin 4096)

theorem result_eq (c : Dev nD) :
    shapeCast S4x2048x4096 (G m c) shapeCasts_S8192x4096_S4x2048x4096 = result m c := by
  funext i
  obtain ⟨b, s, o, rfl⟩ : ∃ (b : Fin 4) (s : Fin 2048) (o : Fin 4096), i = ix3 b s o := ⟨i 0, i 1, i 2, eq_ix3 i⟩
  rw [shapeCast_apply (G m c) shapeCasts_S8192x4096_S4x2048x4096 (ix3 b s o) (ix2 (flat b s) o) (by
    rw [Shape.rowMajor_val_three, Shape.rowMajor_val_two]
    rfl)]
  show Spec.acc (fun d => Acc.arrX m c (ix2 (flat b s) d))
      (fun d => Acc.arrW m c (ix2 o d) + ∑ r : Fin 16, Acc.arrBs m c (ix2 o r) * Acc.arrA m c (ix2 r d)) 3
    = Spec.kerVal (a0 m c) (a1 m c) (a2 m c) (a3 m c) (a4 m c) b s o
  unfold Spec.kerVal Spec.deltaK
  have e1 : (fun d => Acc.arrX m c (ix2 (flat b s) d)) = fun d => a0 m c (ix3 b s d) :=
    funext fun d => arrX_apply m c b s d
  have e2 : (fun d => Acc.arrW m c (ix2 o d) + ∑ r : Fin 16, Acc.arrBs m c (ix2 o r) * Acc.arrA m c (ix2 r d))
      = fun d => a1 m c (ix2 o d) + ∑ r : Fin 16, Spec.bsv (a3 m c) (a4 m c) o r * a2 m c (ix2 r d) :=
    funext fun d => congrArg₂ (· + ·) (arrW_apply m c (ix2 o d))
      (Finset.sum_congr rfl fun r _ => congrArg₂ (· * ·) (arrBs_apply m c o r) (arrA_apply m c (ix2 r d)))
  exact congrArg₂ (fun f g => Spec.acc f g 3) e1 e2

/-- The run, read: the result buffer at `result`, the arguments unchanged. -/
theorem run : θ_run defs (onTc (τ := τ) (main (F := Ideal))) ⟨m, fun _ => 0, ρ⟩ fun r => ∀ c : Dev nD,
      r.2.mem ((c.tc : Thread nD τ).loc main_v16) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v16 (Pipeline.mem_restRefs_of main_v16 (by decide) (by decide))).trans ((tail_eq m c).trans (result_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.RefValue.lean ====
/-
  The reference's result, read entry by entry: entry `(b, s, o)` of its last stage is `Spec.refVal` of the five
  argument arrays at `(b, s, o)` — the whole product of row `(b, s)` of `x` with row `o` of `W`, plus its whole
  product with row `o` of the scaled rank-16 correction.
-/
import proofs.«130401_j40355512714080_2_alg».proof.Proof.Gen.ReferenceIdeal.Read
import proofs.«130401_j40355512714080_2_alg».proof.Proof.Spec

noncomputable section

open scoped BigOperators

namespace Cert.RefValue

open Idealize.ShloMosaic Idealize.ShloMosaic.ValueIdx Cert.ReferenceIdeal Cert.ReferenceIdeal.Read

/-- The operand positions of the two whole products at output `(b, s, o)` and contraction position `d`. -/
theorem lidx11 (b : Fin 4) (s : Fin 2048) (o d : Fin 4096) : lidx_main_v11 (ix3 b s o) d = ix3 b s d :=
  funext fun a => by match a with | ⟨0, _⟩ => rfl | ⟨1, _⟩ => rfl | ⟨2, _⟩ => rfl
theorem ridx11 (b : Fin 4) (s : Fin 2048) (o d : Fin 4096) : ridx_main_v11 (ix3 b s o) d = ix2 o d :=
  funext fun a => by match a with | ⟨0, _⟩ => rfl | ⟨1, _⟩ => rfl
theorem lidx12 (b : Fin 4) (s : Fin 2048) (o d : Fin 4096) : lidx_main_v12 (ix3 b s o) d = ix3 b s d :=
  funext fun a => by match a with | ⟨0, _⟩ => rfl | ⟨1, _⟩ => rfl | ⟨2, _⟩ => rfl
theorem ridx12 (b : Fin 4) (s : Fin 2048) (o d : Fin 4096) : ridx_main_v12 (ix3 b s o) d = ix2 o d :=
  funext fun a => by match a with | ⟨0, _⟩ => rfl | ⟨1, _⟩ => rfl
/-- The operand positions of the rank-16 product at output `(o, d)` and rank position `r`. -/
theorem lidx8 (o d : Fin 4096) (r : Fin 16) : lidx_main_v8 (ix2 o d) r = ix2 o r :=
  funext fun a => by match a with | ⟨0, _⟩ => rfl | ⟨1, _⟩ => rfl
theorem ridx8 (o d : Fin 4096) (r : Fin 16) : ridx_main_v8 (ix2 o d) r = ix2 r d :=
  funext fun a => by match a with | ⟨0, _⟩ => rfl | ⟨1, _⟩ => rfl
/-- The masked singular values broadcast along the rows of `B`: column `r` reads entry `r`. -/
theorem idx56 (o : Fin 4096) (r : Fin 16) : idx_main_v5 (idx_main_v6 (ix2 o r)) = ix1 r :=
  funext fun a => by match a with | ⟨0, _⟩ => rfl

/-- The scaled left factor `B (o, r) · (σ r · mask (σ r))` of the rank-16 product. -/
theorem v7_apply (x3 : S4096x16.Idx → EReal) (x4 : S16.Idx → EReal) (o : Fin 4096) (r : Fin 16) :
    val_main_v7 (F := Ideal) x3 x4 (ix2 o r) = x3 (ix2 o r) * Spec.smv x4 r := by
  rw [val_main_v7_apply, val_main_v6_apply, val_main_v5_apply, idx56, val_main_v4_apply, val_main_v3_apply,
    val_main_v2_apply, val_main_v0_apply, val_main_v1_apply, val_main_cst_apply]
  rfl

/-- The scaled correction at `(o, d)`. -/
theorem v10_apply (x2 : S16x4096.Idx → EReal) (x3 : S4096x16.Idx → EReal) (x4 : S16.Idx → EReal) (o d : Fin 4096) :
    val_main_v10 (F := Ideal) x2 x3 x4 (ix2 o d) = Spec.deltaR x2 x3 x4 o d := by
  rw [val_main_v10_apply, val_main_v8_apply, val_main_v9_apply, val_main_cst_0_apply]
  unfold Spec.deltaR
  simp only [lidx8, ridx8, v7_apply]
  rfl

/-- The reference's last stage at `(b, s, o)`. -/
theorem result_apply (x0 : S4x2048x4096.Idx → EReal) (x1 : S4096x4096.Idx → EReal) (x2 : S16x4096.Idx → EReal)
    (x3 : S4096x16.Idx → EReal) (x4 : S16.Idx → EReal) (b : Fin 4) (s : Fin 2048) (o : Fin 4096) :
    val_main_v13 (F := Ideal) x0 x1 x2 x3 x4 (ix3 b s o) = Spec.refVal x0 x1 x2 x3 x4 b s o := by
  rw [val_main_v13_apply, val_main_v11_apply, val_main_v12_apply]
  unfold Spec.refVal
  simp only [lidx11, ridx11, lidx12, ridx12, v10_apply]
  rfl

end Cert.RefValue

end
-- ==== Proof.LibFinite.lean ====
/-
  A printed finiteness precondition read back. `jnp.all(|x| < +∞)` prints as a reduction by `and`, from the constant 1, of
  the comparison of `|x|` with the broadcast pattern of `+∞`; when that reduction is 1, every entry of `x` is a real
  number: an extended real whose absolute value `max a (-a)` is below `⊤` is neither infinity.
-/
import Idealize.ShloMosaic.Lib.ReduceAll
import Idealize.ShloMosaic.Lib.ValueIdx
import Idealize.ShloMosaic.PureOps.Ideal.Laws
import proofs.«130401_j40355512714080_2_alg».proof.Proof.LibReal
import proofs.«130401_j40355512714080_2_alg».proof.Proof.LibColumn

noncomputable section

namespace Cert.LibFinite

open Idealize.ShloMosaic Cert.LibReal

/-- The shape of rank zero has one index. -/
instance : Subsingleton (⟨0, ![]⟩ : Shape).Idx := ⟨fun _ _ => funext fun d => d.elim0⟩

/-- An extended real whose absolute value compares below the pattern of `+∞` is a real number. -/
theorem isR_of_abs_lt_inf (a : EReal)
    (h : Ideal.cmp .olt (max a (-a)) (Ideal.ofBits .f32 0x7F800000#32) = 1#1) : IsR a := by
  have htop : Ideal.ofBits .f32 0x7F800000#32 = ⊤ := by simp [Ideal.ofBits, Ideal.ieee]
  rw [htop] at h
  unfold Ideal.cmp at h
  have hlt : max a (-a) < ⊤ := by
    by_contra hn
    simp [hn] at h
  rw [max_lt_iff] at hlt
  induction a using EReal.rec with
  | bot => simp at hlt
  | coe r => exact ⟨r, rfl⟩
  | top => simp at hlt

/-- `jnp.all(|x| < +∞)` being 1 makes every entry of `x` a real number. -/
theorem isR_of_all_finite {s : Shape} {axes : List (Fin s.rank)} (x : FVec Ideal s .f32)
    (bc : (⟨0, ![]⟩ : Shape).BroadcastsInDim s (![] : Fin 0 → Fin s.rank)) (h : s.ReducesTo axes ⟨0, ![]⟩)
    (hu : 0 < (⟨0, ![]⟩ : Shape).numel) (j : (⟨0, ![]⟩ : Shape).Idx)
    (e : Host.reduce IntOp.andi
        (cmpf .olt (Host.absf x) (broadcastInDim s ![] bc (constant (F := Ideal) ⟨0, ![]⟩ .f32 0x7F800000#32)))
        (constantI ⟨0, ![]⟩ 1 1#1) h hu j = 1#1)
    (i : s.Idx) : IsR (x i) := by
  have hi := Host.reduce_andi_all _ _ h hu j e i
  rw [ValueIdx.cmpf_apply, Cert.LibColumn.broadcastInDim_scalar_apply] at hi
  exact isR_of_abs_lt_inf (x i) hi

end Cert.LibFinite

end
-- ==== Proof.Finite.lean ====
/-
  The precondition read back: when the printed finiteness test of the five argument arrays is 1, every entry of every
  array is a real number. The test is the conjunction, taken left to right, of one `all(|x| < +∞)` per array.
-/
import proofs.«130401_j40355512714080_2_alg».proof.Proof.Gen.Pre_finite_inputs
import proofs.«130401_j40355512714080_2_alg».proof.Proof.LibFinite
import Idealize.ShloMosaic.Lib.Affine

noncomputable section

namespace Cert.Finite

open Idealize.ShloMosaic Cert.LibReal Cert.Pre_finite_inputs

theorem reals_of_pre (x0 : FVec Ideal S4x2048x4096 .f32) (x1 : FVec Ideal S4096x4096 .f32) (x2 : FVec Ideal S16x4096 .f32)
    (x3 : FVec Ideal S4096x16 .f32) (x4 : FVec Ideal S16 .f32)
    (h : Cert.Pre_finite_inputs.fn (F := Ideal) x0 x1 x2 x3 x4 = fun _ => 1#1) :
    (∀ i, IsR (x0 i)) ∧ (∀ i, IsR (x1 i)) ∧ (∀ i, IsR (x2 i)) ∧ (∀ i, IsR (x3 i)) ∧ (∀ i, IsR (x4 i)) := by
  have h0 := congrFun h ValueIdx.ix0
  unfold Cert.Pre_finite_inputs.fn Cert.Pre_finite_inputs.fn_part1 at h0
  dsimp only at h0
  obtain ⟨h0123, e4⟩ := IntOp.andi_eq_one.mp h0
  obtain ⟨h012, e3⟩ := IntOp.andi_eq_one.mp h0123
  obtain ⟨h01, e2⟩ := IntOp.andi_eq_one.mp h012
  obtain ⟨e0, e1⟩ := IntOp.andi_eq_one.mp h01
  exact ⟨Cert.LibFinite.isR_of_all_finite x0 _ _ _ _ e0, Cert.LibFinite.isR_of_all_finite x1 _ _ _ _ e1,
    Cert.LibFinite.isR_of_all_finite x2 _ _ _ _ e2, Cert.LibFinite.isR_of_all_finite x3 _ _ _ _ e3,
    Cert.LibFinite.isR_of_all_finite x4 _ _ _ _ e4⟩

end Cert.Finite

end
-- ==== Proof.lean ====
/-
  A linear layer with a low-rank correction, `x ↦ x · (W + Δ)ᵀ` with `Δ = (B · diag(σ ⊙ mask)) · A` scaled by 1, computed
  two ways. The reference takes the two whole products `x · Wᵀ` and `x · Δᵀ` and adds them. The kernel never forms `Δ`
  whole: on an 8 × 4 × 4 grid it adds to each 1024 × 1024 block of `W` the matching block of the rank-16 product,
  multiplies by the block of activations, and accumulates over the four quarters of the contraction axis into one output
  tile, written back after the last quarter.

  On the extended reals both results are, entry by entry, `Σ_d x · W + Σ_d x · Δ`: the kernel's sum over quarters is the whole
  sum in any commutative monoid, and moving `x` across `W + Δ` is the distributive law, which holds because the
  precondition makes every entry of every argument a real number (the mask is 0 or 1, the scale is 1). The frames are
  the generated ones; the reference's is its run with the result dropped. The ideal pass rewrote nothing.
-/
import proofs.«130401_j40355512714080_2_alg».proof.Defs
import proofs.«130401_j40355512714080_2_alg».proof.Proof.Gen.Kernel.Frame
import proofs.«130401_j40355512714080_2_alg».proof.Proof.Gen.KernelIdeal.Frame
import proofs.«130401_j40355512714080_2_alg».proof.Proof.Gen.Pre_finite_inputs
import proofs.«130401_j40355512714080_2_alg».proof.Proof.KernelValue
import proofs.«130401_j40355512714080_2_alg».proof.Proof.RefValue
import proofs.«130401_j40355512714080_2_alg».proof.Proof.Finite

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result buffer at the kernel's function of the arguments: the kernel by its value, the
    reference because its last stage is `Spec.refVal` entry by entry and the two agree among real numbers. -/
theorem algebraic : Cert.algebraic_KernelIdeal_ReferenceIdeal := by
  intro m ρ m' ρ' hpre hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2]
  rw [Cert.ReferenceIdeal.Read.val_main_v13_eq]
  obtain ⟨h0, h1, h2, h3, h4⟩ := Cert.Finite.reals_of_pre _ _ _ _ _ (hpre c)
  funext i
  obtain ⟨b, s, o, rfl⟩ : ∃ (b : Fin 4) (s : Fin 2048) (o : Fin 4096), i = ix3 b s o := ⟨i 0, i 1, i 2, eq_ix3 i⟩
  rw [Cert.RefValue.result_apply]
  exact (Cert.Spec.kerVal_eq_refVal _ _ _ _ _ h0 h1 h2 h3 h4 b s o).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
